-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) (main_arg1 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_cst_2 : FVec F S_ .f32 := constant S_ .f32 0x00000000#32
  let main_v9 : FVec F S32768x1024 .f32 := broadcastInDim S32768x1024 ![] bcast_S_S32768x1024 main_cst_2
  let main_v10 : IVec S32768x1024 1 := cmpf .oeq main_arg1 main_v9
  let main_cst_3 : FVec F S_ .f32 := constant S_ .f32 0x3F800000#32
  let main_v11 : FVec F S32768x1024 .f32 := broadcastInDim S32768x1024 ![] bcast_S_S32768x1024 main_cst_3
  let main_v12 : IVec S32768x1024 1 := cmpf .oeq main_arg1 main_v11
  let main_v13 : IVec S32768x1024 1 := ori main_v10 main_v12
  let main_c_4 : IVec S_ 1 := constantI S_ 1 1#1
  let main_v14 : IVec S_ 1 := (fun x v => Host.reduce IntOp.andi x v reducesTo_S32768x1024_S_d0_1 h_S_) main_v13 main_c_4
  let main_v15 : IVec S_ 1 := andi main_v8 main_v14
  main_v15
-- ==== Kernel.lean ====
abbrev S32768x1024 : Shape := ⟨2, ![32768, 1024]⟩
abbrev S2x1x1 : Shape := ⟨3, ![2, 1, 1]⟩
abbrev S1024x1024 : Shape := ⟨2, ![1024, 1024]⟩
abbrev S1x1x1 : Shape := ⟨3, ![1, 1, 1]⟩
abbrev S1x1024 : Shape := ⟨2, ![1, 1024]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2x1x1, .f32⟩
  | .hbm, ⟨3, _⟩ => ⟨S_, .f32⟩
  | .hbm, ⟨4, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1, .f32⟩
  | .local _ .vmem, ⟨5, _⟩ => ⟨S1x1x1, .f32⟩
  | .local _ .vmem, ⟨6, _⟩ => ⟨S1x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  reduces_S1x1024_S1 : S1x1024.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x1024 : Shape := ⟨2, ![32768, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S_, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .i1⟩
  | .hbm, ⟨21, _⟩ => ⟨S_, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts₀]

class Facts : Prop extends Facts₀ where

variable [Facts]
-- ==== Proof.Pieces.lean ====
/-
  What one grid point's body leaves behind, read as values.

  The kernel walks a 2 × 16 grid. Each point loads a 1024 × 1024 block of predictions and of labels and owns a
  [1, 1024] accumulator that lives across the sixteen points of a run. The first point of a run zeroes the
  accumulator before adding; every point adds the column sums of its block's per-element losses; the last point
  of a run also sums the accumulator over its lanes into the run's one output cell. The stores go through the
  rectangle that is the whole buffer, so what a buffer holds afterwards is the last payload stored.
-/
import proofs.«171174_j88450556494508_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

/-- The offset vectors of the whole-buffer rectangles are zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a point that neither opens nor closes a run of sixteen the body leaves, in the accumulator holding `xs0`,
    the accumulator plus this block's column sums: the payload of its one store through the whole buffer. -/
theorem acc_B (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : ¬cond0_1 i)
    (x0 x1 : Vec F S1024x1024 .f32) (xs0 : Vec F S1x1024 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S1024x1024) hz2,
    View.ld_unit_zero (S := S1x1024) hz2]

/-- At the first point of a run the body stores the zero row, reads it back, and leaves the zero row plus this
    block's column sums. -/
theorem acc_A (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1x1024 .f32) (h5 : a5.IsWhole) (hc0 : cond0_0 i) (hc1 : ¬cond0_1 i)
    (x0 x1 : Vec F S1024x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) hz2, View.readCov_unit_zero (S := S1x1024) _ hz2]
  simp only [View.readAt_eq_ld, h2.read_unread, h3.read_unread, View.ld_unit_zero (S := S1024x1024) hz2]

/-- At the last point of a run the accumulator is updated as at any other point, -/
theorem acc_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : cond0_1 i)
    (x0 x1 : Vec F S1024x1024 .f32) (xs0 : Vec F S1x1024 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S1024x1024) hz2,
    View.ld_unit_zero (S := S1x1024) hz2]

/-- and the output block receives the sum over the lanes of the updated accumulator, read back after its store. -/
theorem out_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1x1024 .f32) (h5 : a5.IsWhole) (hc0 : ¬cond0_0 i) (hc1 : cond0_1 i)
    (x0 x1 : Vec F S1024x1024 .f32) (xs0 : Vec F S1x1024 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1024) _ hz2]
  simp only [View.readAt_eq_ld, h2.read_unread, h3.read_unread, h5.read_unread, View.ld_unit_zero (S := S1024x1024) hz2,
    View.ld_unit_zero (S := S1x1024) hz2]

end Cert.KernelIdeal.Loss
end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.Spec.lean ====
/-
  The loss both programs compute, as one function of the two argument arrays.

  For a prediction p and a label t, write L(p) = max (log p) (−100) and L'(p) = max (log (1 − p)) (−100), the two
  logarithms floored at −100. One element's loss is −L'(p) where the label is 0 and −L(p) elsewhere, and the
  result is the sum of the element losses over the whole [32768, 1024] array.

  The kernel forms the element loss by one selection on "label = 0" and multiplies by the weight 1. The reference
  forms −(t · L + (1 − t) · L'), keeps it where the label is 0 in one array and where it is not in another, sums
  both arrays and adds the two sums, each weighted by 1. For a label that is 0 or 1 the two element forms agree:
  0 · x = 0 and 1 · x = x hold for every extended real x, so no finiteness of the logarithms is needed. The two
  totals then agree because a sum of sums is the sum of the sums, which holds in any commutative monoid.

  The kernel adds the elements in another order: rows are cut into 32 blocks of 1024, the blocks into 2 runs of
  16, and for each run and each column the sixteen blocks' column sums are added, then the columns, then the two
  runs. `regroup` says this arrangement is the sum over the whole array.
-/
import Idealize.ShloMosaic.PureOps.Ideal.Laws
import Idealize.ShloMosaic.PureOps.IdealRules
import Idealize.ShloMosaic.Lib.ValueIdx
import proofs.«171174_j88450556494508_2_alg».proof.Proof.LibSumBlocks

noncomputable section

namespace Cert.Loss

open Idealize.ShloMosaic Idealize.ShloMosaic.ValueIdx
open scoped BigOperators

/-- The shape of the two argument arrays. -/
abbrev Arr : Shape := ⟨2, ![32768, 1024]⟩

/-- The floor of the logarithms, −100, as the word both programs carry. -/
abbrev lo : EReal := Ideal.ofBits .f32 0xC2C80000#32

/-- `log p`, floored. -/
def logp (p : EReal) : EReal := max (Ideal.log p) lo
/-- `log (1 − p)`, floored. -/
def log1mp (p : EReal) : EReal := max (Ideal.log1p (-p)) lo

/-- One element's loss: `−log (1 − p)` at label 0, `−log p` at any other label, the logarithms floored. -/
def term (p t : EReal) : EReal := if t = 0 then -log1mp p else -logp p

/-- The word of 1.0 is the number 1. -/
theorem ofBits_one : Ideal.ofBits .f32 0x3F800000#32 = 1 := IdealRules.sign_bit.ideal_onePat .f32

theorem cmp_oeq_zero_of_eq {t : EReal} (h : t = 0) : Ideal.cmp .oeq t 0 = 1#1 := by
  simp [Ideal.cmp, h]
theorem cmp_oeq_zero_of_ne {t : EReal} (h : ¬t = 0) : Ideal.cmp .oeq t 0 = 0#1 := by
  simp [Ideal.cmp, h]

/-- The kernel's element: the weight 1 times the selection, on "label = 0", between `0 − L'` and `0 − L`. -/
theorem kernel_term (p t : EReal) :
    Ideal.ofBits .f32 0x3F800000#32 * Scalar.select (Ideal.cmp .oeq t (Ideal.ofBits .f32 0x00000000#32))
        (Ideal.ofBits .f32 0x00000000#32 - max (Ideal.log1p (Ideal.ofBits .f32 0x00000000#32 - p)) lo)
        (Ideal.ofBits .f32 0x00000000#32 - max (Ideal.log p) lo) = term p t := by
  rw [ofBits_one, Ideal.ofBits_zero_f32, one_mul]
  unfold term logp log1mp
  by_cases h : t = 0
  · rw [cmp_oeq_zero_of_eq h, select_one, if_pos h, zero_sub, zero_sub]
  · rw [cmp_oeq_zero_of_ne h, select_zero, if_neg h, zero_sub]

/-- The reference's element before its two selections: `−(t · L + (1 − t) · L')`. -/
def bce (p t : EReal) : EReal := -(t * logp p + (1 - t) * log1mp p)

/-- For a label that is 0 or 1, the reference's two selected elements — the one kept where the label is not 0 and
    the one kept where it is — add up to the element loss. -/
theorem ref_term (p t : EReal) (ht : t = 0 ∨ t = 1) :
    Scalar.select (Ideal.cmp .oeq t 0) 0 (bce p t) + Scalar.select (Ideal.cmp .oeq t 0) (bce p t) 0 = term p t := by
  unfold term bce
  rcases ht with h | h
  · rw [cmp_oeq_zero_of_eq h, select_one, select_one, if_pos h, h, zero_mul, sub_zero, one_mul, zero_add, zero_add]
  · have h0 : ¬t = 0 := by rw [h]; exact one_ne_zero
    have h11 : (1 : EReal) - 1 = 0 := by
      rw [← EReal.coe_one, ← EReal.coe_sub, sub_self, EReal.coe_zero]
    rw [cmp_oeq_zero_of_ne h0, select_zero, select_zero, if_neg h0, h, one_mul, h11, zero_mul, add_zero, add_zero]

/-- The reference's total: the two selected arrays summed from 0, each sum weighted by 1, and the two added. -/
theorem ref_total (P T : Arr.Idx → EReal) (hT : ∀ i, T i = 0 ∨ T i = 1) :
    1 * (0 + ∑ j : Arr.Idx, Scalar.select (Ideal.cmp .oeq (T j) 0) 0 (bce (P j) (T j)))
      + 1 * (0 + ∑ j : Arr.Idx, Scalar.select (Ideal.cmp .oeq (T j) 0) (bce (P j) (T j)) 0)
      = ∑ i : Arr.Idx, term (P i) (T i) := by
  rw [one_mul, one_mul, zero_add, zero_add, ← Finset.sum_add_distrib]
  exact Finset.sum_congr rfl fun j _ => ref_term (P j) (T j) (hT j)

/-! ## The kernel's order of summation -/

/-- The element loss at a row and a column given as natural numbers (0 outside the array). -/
def elt (P T : Arr.Idx → EReal) (row col : ℕ) : EReal :=
  if h : row < 32768 ∧ col < 1024 then term (P (ix2 ⟨row, h.1⟩ ⟨col, h.2⟩)) (T (ix2 ⟨row, h.1⟩ ⟨col, h.2⟩)) else 0

/-- The sum of column `v` over the 1024 rows of row block `n`. -/
def blockCols (P T : Arr.Idx → EReal) (n v : ℕ) : EReal := ∑ r : Fin 1024, elt P T (n * 1024 + r.val) v

/-- Runs, then columns, then the blocks of a run, then the rows of a block: every element once. -/
theorem regroup (P T : Arr.Idx → EReal) :
    ∑ c : Fin 2, ∑ v : Fin 1024, ∑ q : Fin 16, blockCols P T (16 * c.val + q.val) v.val
      = ∑ i : Arr.Idx, term (P i) (T i) := by
  have e : ∀ (a : Fin 32768) (b : Fin 1024), term (P (ix2 a b)) (T (ix2 a b)) = elt P T a.val b.val := fun a b => by
    unfold elt; rw [dif_pos ⟨a.isLt, b.isLt⟩]
  have s1 : ∑ i : Arr.Idx, term (P i) (T i) = ∑ a : Fin 32768, ∑ b : Fin 1024, elt P T a.val b.val := by
    rw [sum_idx2]
    exact Finset.sum_congr rfl fun a _ => Finset.sum_congr rfl fun b _ => e a b
  have s2 : ∑ a : Fin 32768, ∑ b : Fin 1024, elt P T a.val b.val
      = ∑ n : Fin 32, ∑ r : Fin 1024, ∑ b : Fin 1024, elt P T (n.val * 1024 + r.val) b.val :=
    SumBlocks.sum_blocks (A := 32) (B := 1024) (fun a => ∑ b : Fin 1024, elt P T a.val b.val)
  have s3 : ∑ n : Fin 32, ∑ r : Fin 1024, ∑ b : Fin 1024, elt P T (n.val * 1024 + r.val) b.val
      = ∑ c : Fin 2, ∑ q : Fin 16, ∑ r : Fin 1024, ∑ b : Fin 1024, elt P T ((c.val * 16 + q.val) * 1024 + r.val) b.val :=
    SumBlocks.sum_blocks (A := 2) (B := 16) (fun n => ∑ r : Fin 1024, ∑ b : Fin 1024, elt P T (n.val * 1024 + r.val) b.val)
  rw [s1, s2, s3]
  refine Finset.sum_congr rfl fun c _ => ?_
  rw [Finset.sum_comm]
  refine Finset.sum_congr rfl fun q _ => ?_
  unfold blockCols
  rw [Finset.sum_comm, Nat.mul_comm 16 c.val]

end Cert.Loss

end
-- ==== Proof.Payload.lean ====
/-
  The three stored values of the kernel body, read entry by entry on the extended reals.

  The zero row is 0 at every lane. The accumulator update at lane v is the old accumulator plus the sum, over the
  1024 rows of the two loaded blocks, of the element loss of column v. The output cell is the sum of the
  accumulator over all its lanes.
-/
import proofs.«171174_j88450556494508_2_alg».proof.Proof.Gen.KernelIdeal.Skeleton
import proofs.«171174_j88450556494508_2_alg».proof.Proof.Spec
import Idealize.ShloMosaic.Lib.Pipeline.Value
import Idealize.ShloMosaic.Lib.ValueLayout
import Idealize.ShloMosaic.PureOps.Ideal.Laws

noncomputable section

namespace Cert.KernelIdeal.Loss

open Idealize.ShloMosaic Idealize.ShloMosaic.ValueIdx
open Cert.KernelIdeal Cert.KernelIdeal.Gen Cert.Loss
open scoped BigOperators

/-- The row the first point of a run stores is zero at every lane. -/
theorem zeroRow_apply (j : S1x1024.Idx) : k0_pay1 (F := Ideal) j = 0 := by
  unfold k0_pay1
  rw [shapeCast_self]
  exact Ideal.ofBits_zero_f32

/-- A reduced lane `v` with the row `r` put back is the block index `(r, v)`. -/
theorem lift_cols (r v : Fin 1024) : reduces_S1024x1024_S1024.lift (ix1 v) r = ix2 r v :=
  funext fun a => Fin.ext (by match a with | ⟨0, _⟩ => rfl | ⟨1, _⟩ => rfl)

/-- Adding to a row `xs` the sums of a block `w` down its columns: at lane `v` it is `xs v + ∑ r, w (r, v)`. -/
theorem addColSums_apply (w : FVec Ideal S1024x1024 .f32) (xs : FVec Ideal S1x1024 .f32) (u : Fin 1) (v : Fin 1024) :
    shapeCast S1x1024 (addf xs (shapeCast S1x1024
        (multiReduction .add [0] S1024 w 0x00000000#32 reduces_S1024x1024_S1024 (.inl rfl) rfl) shapeCasts_S1024_S1x1024))
      shapeCasts_S1x1024_S1x1024 (ix2 u v) = xs (ix2 u v) + ∑ r : Fin 1024, w (ix2 r v) := by
  rw [shapeCast_self, addf_apply, shapeCast_a_1a_apply]
  refine congrArg (xs (ix2 u v) + ·) ?_
  exact (Ideal.multiReduction_add_single w 0x00000000#32 reduces_S1024x1024_S1024 (.inl rfl) rfl (ix1 v)).trans
    (Finset.sum_congr rfl fun r _ => congrArg w (lift_cols r v))

/-- The accumulator update at lane `v`: the old value plus the element losses of column `v` over the block's rows. -/
theorem accUpdate_apply (x0 x1 : Vec Ideal S1024x1024 .f32) (xs : Vec Ideal S1x1024 .f32) (u : Fin 1) (v : Fin 1024) :
    k0_pay2 (F := Ideal) x0 x1 xs (ix2 u v)
      = xs (ix2 u v) + ∑ r : Fin 1024, term (x0 (ix2 r v)) (x1 (ix2 r v)) := by
  unfold k0_pay2
  exact (addColSums_apply _ xs u v).trans
    (congrArg (xs (ix2 u v) + ·) (Finset.sum_congr rfl fun r _ => kernel_term (x0 (ix2 r v)) (x1 (ix2 r v))))

/-- The output cell: the accumulator summed over all its lanes. -/
theorem laneSum_apply (xs : Vec Ideal S1x1024 .f32) (j : S1x1x1.Idx) :
    k0_pay3 (F := Ideal) xs j = ∑ l : S1x1024.Idx, xs l :=
  Ideal.multiReduction_add_total xs 0x00000000#32 reduces_S1x1024_S1 (fun b => by fin_cases b; rfl) (.inl rfl) rfl _

end Cert.KernelIdeal.Loss

end
-- ==== Proof.LibBlockRuns.lean ====
/-
  A running sum that restarts every `B` points.

  Let `o` and `T` be sequences in an additive commutative monoid, and suppose that at every point `n` below `N`
  the value `o n` is `0 + T n` when `n` is a multiple of `B`, and `o (n − 1) + T n` otherwise.  Then `o n` is
  the sum of `T` over the run of `n`: the points from the last multiple of `B` at or before `n` up to `n`.  In
  particular, at the last point `B · c + (B − 1)` of run `c` the value is the sum of `T` over the `B` points of
  the run.  The proof is an induction on `n`: a multiple of `B` starts a run of one point, and any other point
  extends the run of its predecessor, which has the same quotient by `B`.
-/
import Mathlib.Algebra.BigOperators.Intervals
import Mathlib.Algebra.BigOperators.Fin
import Mathlib.Order.Interval.Finset.Nat
import Mathlib.Algebra.Order.Interval.Finset.SuccPred

open scoped BigOperators

namespace Idealize.ShloMosaic.BlockRuns

variable {α : Type*} [AddCommMonoid α]

/-- A sequence that restarts at the multiples of `B` and otherwise adds to its predecessor is, at each point,
    the sum of the summands over the point's run. -/
theorem run_sum {B : ℕ} (N : ℕ) (o T : ℕ → α)
    (h0 : ∀ n < N, n % B = 0 → o n = 0 + T n)
    (hs : ∀ n < N, n % B ≠ 0 → o n = o (n - 1) + T n) :
    ∀ n < N, o n = ∑ i ∈ Finset.Icc (B * (n / B)) n, T i := by
  intro n
  induction n with
  | zero =>
    intro hn
    rw [h0 0 hn (Nat.zero_mod B), zero_add, Nat.zero_div, Nat.mul_zero, Finset.Icc_self, Finset.sum_singleton]
  | succ n ih =>
    intro hn
    by_cases hm : (n + 1) % B = 0
    · rw [h0 (n + 1) hn hm, zero_add, Nat.mul_div_cancel' (Nat.dvd_of_mod_eq_zero hm), Finset.Icc_self,
        Finset.sum_singleton]
    · have hdiv : (n + 1) / B = n / B := Nat.succ_div_of_not_dvd (fun hd => hm (Nat.mod_eq_zero_of_dvd hd))
      rw [hs (n + 1) hn hm, Nat.add_sub_cancel, ih (Nat.lt_of_succ_lt hn), hdiv,
        Finset.sum_Icc_succ_top (le_trans (Nat.mul_div_le n B) (Nat.le_succ n))]

/-- At the last point of run `c` the sequence is the sum of the summands over the `B` points of the run. -/
theorem run_end {B : ℕ} (hB : 0 < B) (N : ℕ) (o T : ℕ → α)
    (h0 : ∀ n < N, n % B = 0 → o n = 0 + T n)
    (hs : ∀ n < N, n % B ≠ 0 → o n = o (n - 1) + T n)
    (c : ℕ) (hc : B * c + (B - 1) < N) :
    o (B * c + (B - 1)) = ∑ i : Fin B, T (B * c + i.val) := by
  have hdiv : (B * c + (B - 1)) / B = c := by
    rw [Nat.mul_add_div hB, Nat.div_eq_of_lt (Nat.sub_lt hB Nat.one_pos), Nat.add_zero]
  have hlen : B * c + (B - 1) + 1 - B * c = B := by omega
  rw [run_sum N o T h0 hs _ hc, hdiv, ← Finset.Ico_add_one_right_eq_Icc, Finset.sum_Ico_eq_sum_range, hlen,
    Fin.sum_univ_eq_sum_range (fun i => T (B * c + i))]

end Idealize.ShloMosaic.BlockRuns
-- ==== Proof.Accum.lean ====
/-
  The accumulator across the grid, and the output cell of each run.

  Grid point t (0 ≤ t < 32) loads row block t of both arrays: rows 1024·t … 1024·t + 1023, all 1024 columns. Its
  accumulator update adds, at lane v, the sum of column v of the element losses over those rows. The points
  0 and 16 start from the zero row, every other point from what the point before left, so after the last point
  16·k + 15 of run k the accumulator holds, lane by lane, the sum over the sixteen blocks of the run of their
  column sums. That point also writes the sum over the lanes into the run's output cell.
-/
import proofs.«171174_j88450556494508_2_alg».proof.Proof.Gen.KernelIdeal.Frame
import proofs.«171174_j88450556494508_2_alg».proof.Proof.Pieces
import proofs.«171174_j88450556494508_2_alg».proof.Proof.Payload
import proofs.«171174_j88450556494508_2_alg».proof.Proof.LibBlockRuns

noncomputable section

open Idealize.ShloMosaic Idealize.ShloMosaic.TcCoe Idealize.SL.Sem Idealize.ShloMosaic.ValueIdx
open Idealize.ShloMosaic.Pipeline (Dat)
open scoped BigOperators

namespace Cert.KernelIdeal.Loss

open Cert.KernelIdeal Cert.KernelIdeal.Gen Cert.Loss

variable (m : (ℓ : Loc nD τ sig) → Buf (Elt Ideal) ℓ)

/-- The printed index maps, decided over the 32 grid points: input block t is row block t, and output block t is
    cell t / 16. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

/-- Row r of block t is a row of the array. -/
theorem row_lt (t : Fin cfg0.N) (r : Fin 1024) : t.val * 1024 + r.val < 32768 := by
  have := t.isLt; have hN : cfg0.N = 32 := N_0; have := r.isLt; omega

/-- The predictions as the kernel finds them, and the labels. -/
abbrev preds (c : Dev nD) : Arr.Idx → EReal := m ((c : Thread nD τ).loc main_arg0)
abbrev labels (c : Dev nD) : Arr.Idx → EReal := m ((c : Thread nD τ).loc main_arg1)

/-- Entry (r, v) of the predictions' block at point t is the array's entry (1024·t + r, v). -/
theorem predBlock_apply (c : Dev nD) (t : Fin cfg0.N) (r v : Fin 1024) :
    (iblk m c 0 t : Vec Ideal S1024x1024 .f32) (ix2 r v) = preds m c (ix2 ⟨t.val * 1024 + r.val, row_lt t r⟩ v) := by
  obtain ⟨e0, e1, -⟩ := index_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [e0]; omega
  | ⟨1, _⟩ => show win0_0.index t 1 * 1024 + 1 * v.val = v.val; rw [e1]; omega

/-- The same for the labels' block. -/
theorem labelBlock_apply (c : Dev nD) (t : Fin cfg0.N) (r v : Fin 1024) :
    (iblk m c 1 t : Vec Ideal S1024x1024 .f32) (ix2 r v) = labels m c (ix2 ⟨t.val * 1024 + r.val, row_lt t r⟩ v) := by
  obtain ⟨-, -, e0, e1, -⟩ := index_facts t
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [e0]; omega
  | ⟨1, _⟩ => show win0_1.index t 1 * 1024 + 1 * v.val = v.val; rw [e1]; omega

/-- The column sums of row block n, as a row of 1024 lanes. -/
def colsAt (c : Dev nD) (n : ℕ) : S1x1024.Idx → EReal := fun l => blockCols (preds m c) (labels m c) n (l 1).val

/-- At any point the update adds the point's column sums to the row it starts from. -/
theorem update_eq (c : Dev nD) (t : Fin cfg0.N) (xs : Vec Ideal S1x1024 .f32) :
    k0_pay2 (F := Ideal) (iblk m c 0 t) (iblk m c 1 t) xs = xs + colsAt m c t.val := by
  funext l
  obtain ⟨u, v, rfl⟩ : ∃ (u : Fin 1) (v : Fin 1024), l = ix2 u v := ⟨l 0, l 1, eq_ix2 l⟩
  refine (accUpdate_apply (iblk m c 0 t) (iblk m c 1 t) xs u v).trans ?_
  show xs (ix2 u v) + _ = xs (ix2 u v) + blockCols (preds m c) (labels m c) t.val v.val
  refine congrArg (xs (ix2 u v) + ·) (Finset.sum_congr rfl fun r _ => ?_)
  rw [predBlock_apply, labelBlock_apply]
  unfold elt
  rw [dif_pos ⟨row_lt t r, v.isLt⟩]

/-- The first point of a run leaves the zero row plus its column sums. -/
theorem acc_first (c : Dev nD) (t : Fin cfg0.N) (h0 : t.val % 16 = 0) :
    (outsAt0 m c t.val t.isLt).2 = 0 + colsAt m c t.val := by
  have h1 : ¬t.val % 16 = 15 := by omega
  rw [outsAt0_A m c t h0 h1]
  dsimp only
  refine (acc_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)).trans ?_
  refine (update_eq m c t (k0_pay1 (F := Ideal))).trans ?_
  exact congrArg (· + colsAt m c t.val) (funext zeroRow_apply)

/-- Every other point adds its column sums to what the point before left. -/
theorem acc_step (c : Dev nD) (t : Fin cfg0.N) (h0 : ¬t.val % 16 = 0) :
    (outsAt0 m c t.val t.isLt).2
      = (outsAt0 m c (t.val - 1) (Nat.lt_of_le_of_lt (Nat.sub_le _ _) t.isLt)).2 + colsAt m c t.val := by
  by_cases h1 : t.val % 16 = 15
  · refine (congrArg Prod.snd (outsAt0_C m c t h0 h1)).trans ?_
    dsimp only
    exact (acc_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
      (update_eq m c t (outsAt0 m c (t.val - 1) (Nat.lt_of_le_of_lt (Nat.sub_le _ _) t.isLt)).2)
  · refine (congrArg Prod.snd (outsAt0_B m c t h0 h1)).trans ?_
    dsimp only
    exact (acc_B (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2).trans
      (update_eq m c t (outsAt0 m c (t.val - 1) (Nat.lt_of_le_of_lt (Nat.sub_le _ _) t.isLt)).2)

/-- The accumulator after point n, as a sequence over all natural numbers (the zero row past the grid). -/
def accAt (c : Dev nD) (n : ℕ) : S1x1024.Idx → EReal := if h : n < cfg0.N then (outsAt0 m c n h).2 else 0

/-- After the last point of run k the accumulator is the sum of the run's sixteen rows of column sums. -/
theorem acc_run_end (c : Dev nD) (k : ℕ) (hk : 16 * k + 15 < cfg0.N) :
    (outsAt0 m c (16 * k + 15) hk).2 = ∑ q : Fin 16, colsAt m c (16 * k + q.val) := by
  have h := BlockRuns.run_end (B := 16) (by norm_num) cfg0.N (accAt m c) (colsAt m c)
    (fun n hn h0 => by
      unfold accAt; rw [dif_pos hn]; exact acc_first m c ⟨n, hn⟩ h0)
    (fun n hn h0 => by
      unfold accAt; rw [dif_pos hn, dif_pos (Nat.lt_of_le_of_lt (Nat.sub_le n 1) hn)]; exact acc_step m c ⟨n, hn⟩ h0)
    k hk
  unfold accAt at h
  rw [dif_pos hk] at h
  exact h

/-- The last point of a run writes the lane sum of the accumulator it has just updated. -/
theorem cell_eq (c : Dev nD) (t : Fin cfg0.N) (h1 : t.val % 16 = 15) (j : S1x1x1.Idx) :
    (outsAt0 m c t.val t.isLt).1 j = ∑ l : S1x1024.Idx, (outsAt0 m c t.val t.isLt).2 l := by
  have h0 : ¬t.val % 16 = 0 := by omega
  have e := outsAt0_C m c t h0 h1
  rw [show (outsAt0 m c t.val t.isLt).1 = _ from congrArg Prod.fst e, show (outsAt0 m c t.val t.isLt).2 = _ from congrArg Prod.snd e]
  dsimp only
  rw [out_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2,
    acc_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2]
  exact laneSum_apply _ j

end Cert.KernelIdeal.Loss

end
-- ==== Proof.LibSumIdx3.lean ====
/-
  A rank-3 index set is the product of its three coordinate ranges, so a sum over it is the triple sum over the
  coordinates. (The rank-2 form is the library's `ValueIdx.sum_idx2`; this is the same statement one rank up, for
  any extents and any commutative additive monoid.)
-/
import Idealize.ShloMosaic.Lib.ValueIdx

namespace Idealize.ShloMosaic.ValueIdx

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over every rank-3 index is the iterated sum over the three coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx
-- ==== Proof.Total.lean ====
/-
  The kernel's result as a function of its arguments.

  The output array has one cell per run. Cell k is written back once, after point 16·k + 15, with the lane sum of
  the accumulator, which by then is the sum over the run's sixteen row blocks of their column sums. The host then
  adds the two cells to 0. Regrouped (`regroup`), this is the sum of the element losses over the whole array.
-/
import proofs.«171174_j88450556494508_2_alg».proof.Proof.Gen.KernelIdeal.Frame
import proofs.«171174_j88450556494508_2_alg».proof.Proof.Accum
import proofs.«171174_j88450556494508_2_alg».proof.Proof.LibSumIdx3
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Loss

open Cert.KernelIdeal Cert.KernelIdeal.Gen Cert.Loss

variable (m : (ℓ : Loc nD τ sig) → Buf (Elt Ideal) ℓ) (ρ : Dev nD → PrngReg)

/-- The output array: cell k holds, summed over the lanes, the sum over the sixteen blocks of run k of their
    column sums. -/
def cells (c : Dev nD) : S2x1x1.Idx → EReal := fun j =>
  ∑ l : S1x1024.Idx, ∑ q : Fin 16, colsAt m c (16 * (j 0).val + q.val) l

/-- The accumulator after the last point of a run, stated at the point. -/
theorem acc_at_end (c : Dev nD) (t : Fin cfg0.N) (h1 : t.val % 16 = 15) :
    (outsAt0 m c t.val t.isLt).2 = ∑ q : Fin 16, colsAt m c (16 * (t.val / 16) + q.val) := by
  obtain ⟨n, hn⟩ := t
  dsimp only at h1 ⊢
  have hk : 16 * (n / 16) + 15 = n := by omega
  have key : ∀ (n' : ℕ) (hn' : n' < cfg0.N), n' = n → (outsAt0 m c n' hn').2 = (outsAt0 m c n hn).2 := by
    intro n' hn' e; subst e; rfl
  have hlt : 16 * (n / 16) + 15 < cfg0.N := by rw [hk]; exact hn
  exact (key (16 * (n / 16) + 15) hlt hk).symm.trans (acc_run_end m c (n / 16) hlt)

/-- What a writing-back point writes is its cell of `cells`. -/
theorem flushed_eq (c : Dev nD) (t : Fin cfg0.N) (hf : (cfg0.win 2).flush t = true) :
    (dats m 0 c).flushed 2 t = ((cfg0.win 2).blk t).view.read (Elt Ideal) (cells m c) := by
  have h1 : t.val % 16 = 15 := (flush0_2 t).mp hf
  obtain ⟨-, -, -, -, e0, -, -⟩ := index_facts t
  show (cfg0.win 2).cut (grid0.coords t) ((dats m 0 c).after 2 t) = _
  rw [after0_2]
  funext y
  rw [View.read_apply]
  have hemb : ((((cfg0.win 2).blk t).view.emb y) 0).val = t.val / 16 := by
    show win0_2.index t 0 * 1 + 1 * (y 0).val = t.val / 16
    have hy : (y 0).val < 1 := (y 0).isLt
    rw [e0]; omega
  show (outsAt0 m c t.val t.isLt).1 y = cells m c (((cfg0.win 2).blk t).view.emb y)
  unfold cells
  rw [hemb, cell_eq m c t h1 y, acc_at_end m c t h1]
  exact Finset.sum_congr rfl fun l _ => Finset.sum_apply l _ _

/-- Every cell is some writing-back point's block: cell k is point 16·k + 15's. -/
theorem covered (c : Dev nD) (i : S2x1x1.Idx) :
    ∃ t : Fin cfg0.N, (cfg0.win 2).flush t = true ∧ i ∈ ((cfg0.win 2).blk t).view.set := by
  have hN : cfg0.N = 32 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 16 * (i 0).val + 15 := ⟨⟨16 * (i 0).val + 15, by omega⟩, rfl⟩
  refine ⟨t, (flush0_2 t).mpr (by omega), ?_⟩
  obtain ⟨-, -, -, -, e0, e1, e2⟩ := index_facts t
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 1 ≤ (i 1).val ∧ (i 1).val < win0_2.index t 1 * 1 + 1
    rw [e1]; omega
  | ⟨2, _⟩ =>
    show win0_2.index t 2 * 1 ≤ (i 2).val ∧ (i 2).val < win0_2.index t 2 * 1 + 1
    rw [e2]; omega

/-- So the output array ends holding `cells`. -/
theorem final_cells (c : Dev nD) : (dats m 0 c).arrAt 2 cfg0.N = cells m c :=
  (dats m 0 c).arrAt_eq_of_cover 2 (cells m c) (flushed_eq m c) (covered c)

/-- The host's last operation adds the cells to 0. -/
theorem tail_eq (c : Dev nD) :
    Pipeline.afterTail₀ cfgs (dats m) 0 (V0 m) [hostOps1] c main_v1
      = Host.reduceAdd (cells m c) (constant (F := Ideal) S_ .f32 0x00000000#32) reducesTo_S2x1x1_S_d0_1_2 h_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = cells m c :=
    (Pipeline.withArrays_arr spec0 launch0.win.arr_inj c _ _ 2).trans (final_cells m c)
  rw [e]

/-- The two cells added to 0 are the sum of the element losses over the whole array. -/
theorem total_eq (c : Dev nD) :
    Host.reduceAdd (cells m c) (constant (F := Ideal) S_ .f32 0x00000000#32) reducesTo_S2x1x1_S_d0_1_2 h_S_
      = fun _ => ∑ i : Arr.Idx, term (preds m c i) (labels m c i) := by
  funext i
  simp only [Host.reduceAdd, Ideal.hostReduceAdd_def]
  refine (Ideal.hostReduceAdd_total reducesTo_S2x1x1_S_d0_1_2 (fun b => b.elim0) (cells m c) _ i).trans ?_
  show Ideal.ofBits .f32 0x00000000#32 + ∑ j : S2x1x1.Idx, cells m c j = _
  rw [Ideal.ofBits_zero_f32, zero_add, sum_idx3, ← regroup (preds m c) (labels m c)]
  refine Finset.sum_congr rfl fun k _ => ?_
  rw [Fin.sum_univ_one, Fin.sum_univ_one]
  unfold cells
  rw [sum_idx2, Fin.sum_univ_one]
  rfl

/-- The kernel's run, read: the result at the sum of the element losses, the arguments unchanged. -/
theorem run : θ_run defs (onTc (τ := τ) (main (F := Ideal))) ⟨m, fun _ => 0, ρ⟩ fun r => ∀ c : Dev nD,
      r.2.mem ((c : Thread nD τ).loc main_v1) = (fun _ => ∑ i : Arr.Idx, term (preds m c i) (labels m c i))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (by decide)).trans ((tail_eq m c).trans (total_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.Reference.lean ====
/-
  The reference's result as a function of its arguments.

  Read one operation at a time, the reference forms at every entry `−(t · L + (1 − t) · L')` with the two floored
  logarithms, keeps it where the label is not 0 in one array and where it is 0 in another, sums each array from 0,
  weights each sum by 1 and adds them. For labels that are 0 or 1 this is the sum of the element losses
  (`ref_total`).
-/
import proofs.«171174_j88450556494508_2_alg».proof.Proof.Gen.ReferenceIdeal.Read
import proofs.«171174_j88450556494508_2_alg».proof.Proof.Spec

noncomputable section

namespace Cert.ReferenceIdeal.Loss

open Idealize.ShloMosaic Idealize.ShloMosaic.ValueIdx
open Cert.ReferenceIdeal Cert.ReferenceIdeal.Read Cert.Loss
open scoped BigOperators

/-- The entry before the two selections. -/
theorem negated_apply (P T : FVec Ideal S32768x1024 .f32) (j : S32768x1024.Idx) :
    val_main_v12 (F := Ideal) P T j = bce (P j) (T j) := by
  rw [val_main_v12_apply, val_main_v11_apply, val_main_v7_apply, val_main_v10_apply, val_main_v9_apply, val_main_v2_apply,
    val_main_v6_apply, val_main_v0_apply, val_main_v4_apply, val_main_v3_apply, val_main_v1_apply, val_main_v5_apply,
    val_main_v8_apply, val_main_cst_apply, val_main_cst_0_apply, val_main_cst_1_apply]
  show -(T j * max (Ideal.log (P j)) lo + (Ideal.ofBits .f32 0x3F800000#32 - T j) * max (Ideal.log1p (-(P j))) lo) = _
  rw [ofBits_one]
  rfl

/-- The entry kept where the label is not 0 (0 elsewhere). -/
theorem keptAtOne_apply (P T : FVec Ideal S32768x1024 .f32) (j : S32768x1024.Idx) :
    val_main_v17 (F := Ideal) P T j = Scalar.select (Ideal.cmp .oeq (T j) 0) 0 (bce (P j) (T j)) := by
  rw [val_main_v17_apply, val_main_v14_apply, val_main_v13_apply, val_main_cst_2_apply, val_main_call1_v1_apply,
    val_main_call1_v0_apply, val_main_cst_5_apply, negated_apply]
  show Scalar.select (Ideal.cmp .oeq (T j) (Ideal.ofBits .f32 0x00000000#32)) (Ideal.ofBits .f32 0x00000000#32) _ = _
  rw [Ideal.ofBits_zero_f32]

/-- The entry kept where the label is 0 (0 elsewhere). -/
theorem keptAtZero_apply (P T : FVec Ideal S32768x1024 .f32) (j : S32768x1024.Idx) :
    val_main_v15 (F := Ideal) P T j = Scalar.select (Ideal.cmp .oeq (T j) 0) (bce (P j) (T j)) 0 := by
  rw [val_main_v15_apply, val_main_v14_apply, val_main_v13_apply, val_main_cst_2_apply, val_main_call0_v1_apply,
    val_main_call0_v0_apply, val_main_cst_3_apply, negated_apply]
  show Scalar.select (Ideal.cmp .oeq (T j) (Ideal.ofBits .f32 0x00000000#32)) _ (Ideal.ofBits .f32 0x00000000#32) = _
  rw [Ideal.ofBits_zero_f32]

/-- The reference's result is the sum of the element losses, when every label is 0 or 1. -/
theorem result_eq (P T : FVec Ideal S32768x1024 .f32) (hT : ∀ i, T i = 0 ∨ T i = 1) :
    val_main_v21 (F := Ideal) P T = fun _ => ∑ i : Arr.Idx, term (P i) (T i) := by
  funext i
  rw [val_main_v21_apply, val_main_v19_apply, val_main_v20_apply, val_main_v18_apply, val_main_v16_apply,
    val_main_cst_7_apply, val_main_cst_8_apply, val_main_cst_6_apply, val_main_cst_4_apply]
  simp only [keptAtOne_apply, keptAtZero_apply]
  show Ideal.ofBits .f32 0x3F800000#32 * (Ideal.ofBits .f32 0x00000000#32 + _)
    + Ideal.ofBits .f32 0x3F800000#32 * (Ideal.ofBits .f32 0x00000000#32 + _) = _
  rw [ofBits_one, Ideal.ofBits_zero_f32]
  exact ref_total P T hT

end Cert.ReferenceIdeal.Loss

end
-- ==== Proof.Labels.lean ====
/-
  What the precondition says of the labels.

  The precondition is the conjunction of three "for every entry" tests: the predictions are finite, the labels are
  finite, and every label equals 0 or equals 1. Each test is an `and` over the whole array started from true, so a
  result of true means the tested bit is true at every entry. Only the third test is used: on the extended reals
  "t equals the word of 0.0 or the word of 1.0" is "t = 0 or t = 1".
-/
import proofs.«171174_j88450556494508_2_alg».proof.Pre_finite_inputs
import proofs.«171174_j88450556494508_2_alg».proof.Proof.Gen.Pre_finite_inputs
import proofs.«171174_j88450556494508_2_alg».proof.Proof.Spec
import Idealize.ShloMosaic.Lib.ReduceAll
import Idealize.ShloMosaic.Lib.ValueIdx

noncomputable section

namespace Cert.Loss

open Idealize.ShloMosaic Idealize.ShloMosaic.ValueIdx

/-- The result of a reduction over every axis has one index. -/
instance : Subsingleton Cert.Pre_finite_inputs.S_.Idx := ⟨fun a b => funext fun d => d.elim0⟩

/-- An ordered-equal comparison on the extended reals is true exactly at equal operands. -/
theorem cmp_oeq_eq_one {x y : EReal} (h : Ideal.cmp .oeq x y = 1#1) : x = y := by
  by_contra hne
  simp [Ideal.cmp, hne] at h

/-- Under the precondition every label is 0 or 1. -/
theorem labels_binary [Cert.Pre_finite_inputs.Facts] (P T : FVec Ideal Cert.Pre_finite_inputs.S32768x1024 .f32)
    (h : Cert.Pre_finite_inputs.fn (F := Ideal) P T = fun _ => 1#1) (i : Arr.Idx) : T i = 0 ∨ T i = 1 := by
  have h0 := congrFun h ix0
  dsimp only [Cert.Pre_finite_inputs.fn] at h0
  obtain ⟨-, h14⟩ := IntOp.andi_eq_one.1 h0
  have hi := Host.reduce_andi_all _ _ _ _ _ h14 i
  rcases IntOp.ori_eq_one.1 hi with a | b
  · left
    have a' : Ideal.cmp .oeq (T i) (Ideal.ofBits .f32 0x00000000#32) = 1#1 := a
    rw [Ideal.ofBits_zero_f32] at a'
    exact cmp_oeq_eq_one a'
  · right
    have b' : Ideal.cmp .oeq (T i) (Ideal.ofBits .f32 0x3F800000#32) = 1#1 := b
    rw [ofBits_one] at b'
    exact cmp_oeq_eq_one b'

end Cert.Loss

end
-- ==== Proof.lean ====
/-
  The kernel and its reference compute one number: the binary cross-entropy of predictions p against labels t,
  each logarithm floored at −100, summed over the whole [32768, 1024] array.

  The kernel never multiplies by the label. It selects, on "t = 0", between −max (log (1 − p)) (−100) and
  −max (log p) (−100). The reference forms −(t · max (log p) (−100) + (1 − t) · max (log (1 − p)) (−100)). The two
  agree at t = 0 and at t = 1 and nowhere else in general, so the statement carries the conjunct that every label
  is 0 or 1 (it is the only part of the precondition the proof uses: 0 · x = 0 and 1 · x = x hold for every
  extended real, so the logarithms may be infinite).

  The kernel's order of summation: for each of two runs of sixteen row blocks, a [1, 1024] accumulator collects the
  blocks' column sums, the last point of the run sums the accumulator over its lanes into one cell, and the host
  adds the two cells. The reference sums the entries kept where the label is not 0 and those kept where it is 0
  separately over the whole array and adds the two sums. Both are the sum of the element losses over the array:
  addition of extended reals is commutative and associative, which is all the rearrangement needs.

  The three frame claims are the generated frames of the two kernels and the generated run of the reference with
  its result dropped; the ideal pass rewrote nothing, so the preservation claim is trivial.
-/
import proofs.«171174_j88450556494508_2_alg».proof.Defs
import proofs.«171174_j88450556494508_2_alg».proof.Proof.Gen.Kernel
import proofs.«171174_j88450556494508_2_alg».proof.Proof.Gen.Kernel.Skeleton
import proofs.«171174_j88450556494508_2_alg».proof.Proof.Gen.Kernel.Launch
import proofs.«171174_j88450556494508_2_alg».proof.Proof.Gen.Kernel.Points
import proofs.«171174_j88450556494508_2_alg».proof.Proof.Gen.Kernel.Frame
import proofs.«171174_j88450556494508_2_alg».proof.Proof.Gen.KernelIdeal
import proofs.«171174_j88450556494508_2_alg».proof.Proof.Gen.KernelIdeal.Skeleton
import proofs.«171174_j88450556494508_2_alg».proof.Proof.Gen.KernelIdeal.Launch
import proofs.«171174_j88450556494508_2_alg».proof.Proof.Gen.KernelIdeal.Points
import proofs.«171174_j88450556494508_2_alg».proof.Proof.Gen.KernelIdeal.Frame
import proofs.«171174_j88450556494508_2_alg».proof.Proof.Gen.ReferenceIdeal
import proofs.«171174_j88450556494508_2_alg».proof.Proof.Gen.Pre_finite_inputs
import proofs.«171174_j88450556494508_2_alg».proof.Proof.Gen.ReferenceIdeal.Run
import proofs.«171174_j88450556494508_2_alg».proof.Proof.Gen.ReferenceIdeal.Read
import proofs.«171174_j88450556494508_2_alg».proof.Proof.Total
import proofs.«171174_j88450556494508_2_alg».proof.Proof.Reference
import proofs.«171174_j88450556494508_2_alg».proof.Proof.Labels
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the sum of the element losses of arguments that agree. -/
theorem algebraic : Cert.algebraic_KernelIdeal_ReferenceIdeal := by
  intro m ρ m' ρ' hpre hagree
  refine ⟨fun c => (show Cert.KernelIdeal.S_.Idx → EReal from fun _ => ∑ i : Cert.Loss.Arr.Idx,
      Cert.Loss.term (Cert.KernelIdeal.Loss.preds m c i) (Cert.KernelIdeal.Loss.labels m c i)),
    Cert.KernelIdeal.Loss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, (hagree c).1, (hagree c).2]
  exact Cert.ReferenceIdeal.Loss.result_eq _ _ (Cert.Loss.labels_binary _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
